-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x32 : Shape := ⟨2, ![65536, 32]⟩
abbrev S65536x256 : Shape := ⟨2, ![65536, 256]⟩
abbrev S256x384 : Shape := ⟨2, ![256, 384]⟩
abbrev S256 : Shape := ⟨1, ![256]⟩
abbrev S256x32 : Shape := ⟨2, ![256, 32]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x32 : S_.BroadcastsInDim S65536x32 (![] : Fin 0 → Fin S65536x32.rank)
  reducesTo_S65536x32_S_d0_1 : S65536x32.ReducesTo [0, 1] S_
  bcast_S_S65536x256 : S_.BroadcastsInDim S65536x256 (![] : Fin 0 → Fin S65536x256.rank)
  reducesTo_S65536x256_S_d0_1 : S65536x256.ReducesTo [0, 1] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x384 .f32) (main_arg5 : FVec F S256 .f32) (main_arg6 : FVec F S256x32 .f32) (main_arg7 : FVec F S256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S256x384 .f32 := Host.absf main_arg4
  let main_cst_6 : FVec F S_ .f32 := constant S_ .f32 0x7F800000#32
  let main_v20 : FVec F S256x384 .f32 := broadcastInDim S256x384 ![] bcast_S_S256x384 main_cst_6
  let main_v21 : IVec S256x384 1 := cmpf .olt main_v19 main_v20
  let main_c_7 : IVec S_ 1 := constantI S_ 1 1#1
  let main_v22 : IVec S_ 1 := (fun x v => Host.reduce IntOp.andi x v reducesTo_S256x384_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x32 .f32 := Host.absf main_arg6
  let main_cst_10 : FVec F S_ .f32 := constant S_ .f32 0x7F800000#32
  let main_v30 : FVec F S256x32 .f32 := broadcastInDim S256x32 ![] bcast_S_S256x32 main_cst_10
  let main_v31 : IVec S256x32 1 := cmpf .olt main_v29 main_v30
  let main_c_11 : IVec S_ 1 := constantI S_ 1 1#1
  let main_v32 : IVec S_ 1 := (fun x v => Host.reduce IntOp.andi x v reducesTo_S256x32_S_d0_1 h_S_) main_v31 main_c_11
  let main_v33 : IVec S_ 1 := andi main_v28 main_v32
  fn_part2 (F := F) main_arg7 main_v33

def fn {F : FTy → Type} [FloatOps F] (main_arg0 : FVec F S65536x128 .f32) (main_arg1 : FVec F S65536x32 .f32) (main_arg2 : FVec F S65536x256 .f32) (main_arg3 : FVec F S65536x256 .f32) (main_arg4 : FVec F S256x384 .f32) (main_arg5 : FVec F S256 .f32) (main_arg6 : FVec F S256x32 .f32) (main_arg7 : FVec F S256 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x32 .f32 := Host.absf main_arg1
  let main_cst_0 : FVec F S_ .f32 := constant S_ .f32 0x7F800000#32
  let main_v5 : FVec F S65536x32 .f32 := broadcastInDim S65536x32 ![] bcast_S_S65536x32 main_cst_0
  let main_v6 : IVec S65536x32 1 := cmpf .olt main_v4 main_v5
  let main_c_1 : IVec S_ 1 := constantI S_ 1 1#1
  let main_v7 : IVec S_ 1 := (fun x v => Host.reduce IntOp.andi x v reducesTo_S65536x32_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_arg7 main_v13 main_v16
-- ==== Kernel.lean ====
abbrev S65536x128 : Shape := ⟨2, ![65536, 128]⟩
abbrev S65536x32 : Shape := ⟨2, ![65536, 32]⟩
abbrev S65536x256 : Shape := ⟨2, ![65536, 256]⟩
abbrev S256x384 : Shape := ⟨2, ![256, 384]⟩
abbrev S256 : Shape := ⟨1, ![256]⟩
abbrev S256x32 : Shape := ⟨2, ![256, 32]⟩
abbrev S256x128 : Shape := ⟨2, ![256, 128]⟩
abbrev S256x256 : Shape := ⟨2, ![256, 256]⟩
abbrev S1024x128 : Shape := ⟨2, ![1024, 128]⟩
abbrev S1024x32 : Shape := ⟨2, ![1024, 32]⟩
abbrev S1024x256 : Shape := ⟨2, ![1024, 256]⟩
abbrev S1x256 : Shape := ⟨2, ![1, 256]⟩

abbrev nBuf : Space → Nat
  | .hbm => 12
  | .vmem => 17
  | .smem => 0
  | _ => 0

abbrev bufTy : (tb : Table) → Fin (tcTables nBuf tb) → BufTy
  | .hbm, ⟨0, _⟩ => ⟨S65536x128, .f32⟩
  | .hbm, ⟨1, _⟩ => ⟨S65536x32, .f32⟩
  | .hbm, ⟨2, _⟩ => ⟨S65536x256, .f32⟩
  | .hbm, ⟨3, _⟩ => ⟨S65536x256, .f32⟩
  | .hbm, ⟨4, _⟩ => ⟨S256x384, .f32⟩
  | .hbm, ⟨5, _⟩ => ⟨S256, .f32⟩
  | .hbm, ⟨6, _⟩ => ⟨S256x32, .f32⟩
  | .hbm, ⟨7, _⟩ => ⟨S256, .f32⟩
  | .hbm, ⟨8, _⟩ => ⟨S256x128, .f32⟩
  | .hbm, ⟨9, _⟩ => ⟨S256x256, .f32⟩
  | .hbm, ⟨10, _⟩ => ⟨S65536x256, .f32⟩
  | .hbm, ⟨11, _⟩ => ⟨S65536x256, .f32⟩
  | .local _ .vmem, ⟨0, _⟩ => ⟨S1024x128, .f32⟩
  | .local _ .vmem, ⟨1, _⟩ => ⟨S1024x128, .f32⟩
  | .local _ .vmem, ⟨2, _⟩ => ⟨S1024x32, .f32⟩
  | .local _ .vmem, ⟨3, _⟩ => ⟨S1024x32, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x128, .f32⟩
  | .local _ .vmem, ⟨9, _⟩ => ⟨S256x256, .f32⟩
  | .local _ .vmem, ⟨10, _⟩ => ⟨S256, .f32⟩
  | .local _ .vmem, ⟨11, _⟩ => ⟨S256x32, .f32⟩
  | .local _ .vmem, ⟨12, _⟩ => ⟨S256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S256x384_S256x128_0_0 : S256x384.Slices ![0, 0] S256x128
  slices_S256x384_S256x256_0_128 : S256x384.Slices ![0, 128] S256x256
  inb_S1024x128_S1024x128_0_0 : ∀ a, (![0, 0] : Fin 2 → Nat) a + S1024x128.size a ≤ S1024x128.size a
  h_S1024x128 : 0 < S1024x128.numel
  inb_S1024x256_S1024x256_0_0 : ∀ a, (![0, 0] : Fin 2 → Nat) a + S1024x256.size a ≤ S1024x256.size a
  h_S1024x256 : 0 < S1024x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x32_S1024x32_0_0 : ∀ a, (![0, 0] : Fin 2 → Nat) a + S1024x32.size a ≤ S1024x32.size a
  h_S1024x32 : 0 < S1024x32.numel
  inb_S256x32_S256x32_0_0 : ∀ a, (![0, 0] : Fin 2 → Nat) a + S256x32.size a ≤ S256x32.size a
  h_S256x32 : 0 < S256x32.numel
  dot_S1024x128_S256x128_S1024x256_1_1_0_0_n_n_wf : DotDims.WF S1024x128 S256x128 S1024x256 [1] [1] [0] [0] [] []
  dot_S1024x256_S256x256_S1024x256_1_1_0_0_n_n_wf : DotDims.WF S1024x256 S256x256 S1024x256 [1] [1] [0] [0] [] []
  dot_S1024x32_S256x32_S1024x256_1_1_0_0_n_n_wf : DotDims.WF S1024x32 S256x32 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S65536x32.size a
  hwx0_1 : ∀ i : grid0.Coords, EltTy.bits .f32 = 32 ∨ (Rect.block (s := S65536x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x32.size a ≤ S256x32.size a
  hwx0_7 : ∀ i : grid0.Coords, EltTy.bits .f32 = 32 ∨ (Rect.block (s := S256x32) S256x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S65536x256.size a
  hwx0_9 : ∀ i : grid0.Coords, EltTy.bits .f32 = 32 ∨ (Rect.block (s := S65536x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S65536x256.size a
  hwx0_10 : ∀ i : grid0.Coords, EltTy.bits .f32 = 32 ∨ (Rect.block (s := S65536x256) S1024x256.size (cc0_transform_10 i) (hinb0_10 i)).WholeWords (EltTy.packing .f32)

variable [Facts₀]

def dot_S1024x128_S256x128_S1024x256_1_1_0_0_n_n : DotDims S1024x128 S256x128 S1024x256 where
  lhsContracting := [1]
  rhsContracting := [1]
  lhsNonContracting := [0]
  rhsNonContracting := [0]
  lhsBatch := []
  rhsBatch := []
  wf := dot_S1024x128_S256x128_S1024x256_1_1_0_0_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x32_S256x32_S1024x256_1_1_0_0_n_n : DotDims S1024x32 S256x32 S1024x256 where
  lhsContracting := [1]
  rhsContracting := [1]
  lhsNonContracting := [0]
  rhsNonContracting := [0]
  lhsBatch := []
  rhsBatch := []
  wf := dot_S1024x32_S256x32_S1024x256_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x32 : Shape := ⟨2, ![65536, 32]⟩
abbrev S65536x256 : Shape := ⟨2, ![65536, 256]⟩
abbrev S256x384 : Shape := ⟨2, ![256, 384]⟩
abbrev S256 : Shape := ⟨1, ![256]⟩
abbrev S256x32 : Shape := ⟨2, ![256, 32]⟩
abbrev S65536x384 : Shape := ⟨2, ![65536, 384]⟩
abbrev S384x256 : Shape := ⟨2, ![384, 256]⟩
abbrev S1x256 : Shape := ⟨2, ![1, 256]⟩
abbrev S_ : Shape := ⟨0, ![]⟩
abbrev S32x256 : Shape := ⟨2, ![32, 256]⟩

abbrev nBuf : Space → Nat
  | .hbm => 45
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x32, .f32⟩
  | .hbm, ⟨2, _⟩ => ⟨S65536x256, .f32⟩
  | .hbm, ⟨3, _⟩ => ⟨S65536x256, .f32⟩
  | .hbm, ⟨4, _⟩ => ⟨S256x384, .f32⟩
  | .hbm, ⟨5, _⟩ => ⟨S256, .f32⟩
  | .hbm, ⟨6, _⟩ => ⟨S256x32, .f32⟩
  | .hbm, ⟨7, _⟩ => ⟨S256, .f32⟩
  | .hbm, ⟨8, _⟩ => ⟨S65536x384, .f32⟩
  | .hbm, ⟨9, _⟩ => ⟨S384x256, .f32⟩
  | .hbm, ⟨10, _⟩ => ⟨S65536x256, .f32⟩
  | .hbm, ⟨11, _⟩ => ⟨S1x256, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S65536x256, .f32⟩
  | .hbm, ⟨16, _⟩ => ⟨S_, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S32x256, .f32⟩
  | .hbm, ⟨28, _⟩ => ⟨S65536x256, .f32⟩
  | .hbm, ⟨29, _⟩ => ⟨S1x256, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S_, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S65536x256, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  concatenates_S65536x128_S65536x256_S65536x384_d1 : Shape.Concatenates [S65536x128, S65536x256] S65536x384 1
  transposes_S256x384_S384x256_1_0 : S256x384.Transposes [1, 0] S384x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S256x32_S32x256_1_0 : S256x32.Transposes [1, 0] S32x256
  dot_S65536x384_S384x256_S65536x256_1_0_0_1_n_n_wf : DotDims.WF S65536x384 S384x256 S65536x256 [1] [0] [0] [1] [] []
  dot_S65536x32_S32x256_S65536x256_1_0_0_1_n_n_wf : DotDims.WF S65536x32 S32x256 S65536x256 [1] [0] [0] [1] [] []

variable [Facts₀]

def dot_S65536x384_S384x256_S65536x256_1_0_0_1_n_n : DotDims S65536x384 S384x256 S65536x256 where
  lhsContracting := [1]
  rhsContracting := [0]
  lhsNonContracting := [0]
  rhsNonContracting := [1]
  lhsBatch := []
  rhsBatch := []
  wf := dot_S65536x384_S384x256_S65536x256_1_0_0_1_n_n_wf
def dot_S65536x32_S32x256_S65536x256_1_0_0_1_n_n : DotDims S65536x32 S32x256 S65536x256 where
  lhsContracting := [1]
  rhsContracting := [0]
  lhsNonContracting := [0]
  rhsNonContracting := [1]
  lhsBatch := []
  rhsBatch := []
  wf := dot_S65536x32_S32x256_S65536x256_1_0_0_1_n_n_wf

class Facts : Prop extends Facts₀ where

variable [Facts]
-- ==== Proof.Cell.lean ====
/-
  A gated recurrent cell with one shared gate and a side ("media") gate, entry by entry on the extended reals.

  For a batch row with input row `xr` (128 entries), previous hidden row `hr` (256 entries) and previous cell entry
  `ct`, and for an output unit whose weight row is `wx` over the input and `wh` over the hidden state, with bias `b`:

    p      = Σ_k xr k · wx k + Σ_k hr k · wh k + b          the pre-activation shared by the gates
    gate   = σ(p)                                            σ the logistic function
    c      = ct · gate + tanh p · gate                       the new cell entry
    q      = Σ_k mr k · wm k + bm                            the side gate's pre-activation, from the media row `mr`
    c_f    = c − tanh c + tanh c · σ(q)
    hidden = tanh c_f · gate                                 the new hidden entry

  The two matrix products over the input and over the hidden state are the two halves of ONE product over the
  row `xr` followed by `hr` against the weight row of 384 entries: a sum over 384 indices is the sum over the first
  128 plus the sum over the last 256 (`sum_split`), which holds in any commutative monoid, infinite entries included.
-/
import Idealize.ShloMosaic.PureOps.Ideal
import Idealize.ShloMosaic.Lib.ValueIdx

noncomputable section

namespace Cert.GatedCell

open Idealize.ShloMosaic Idealize.ShloMosaic.ValueIdx

/-- The shared pre-activation: the input row against its weights, plus the hidden row against its weights, plus the bias. -/
def preOf (xr wx : Fin 128 → EReal) (hr wh : Fin 256 → EReal) (b : EReal) : EReal :=
  (∑ k : Fin 128, xr k * wx k) + (∑ k : Fin 256, hr k * wh k) + b

/-- The side gate's pre-activation: the media row against its weights, plus the bias. -/
def sideOf (mr wm : Fin 32 → EReal) (b : EReal) : EReal :=
  (∑ k : Fin 32, mr k * wm k) + b

/-- The new cell entry from the previous one and the pre-activation. -/
def cellOf (ct p : EReal) : EReal :=
  ct * Ideal.logistic p + Ideal.tanh p * Ideal.logistic p

/-- The new hidden entry from the previous cell entry, the pre-activation and the side gate's pre-activation. -/
def hiddenOf (ct p q : EReal) : EReal :=
  Ideal.tanh (cellOf ct p - Ideal.tanh (cellOf ct p) + Ideal.tanh (cellOf ct p) * Ideal.logistic q) * Ideal.logistic p

/-- A sum over 384 indices is the sum over the first 128 plus the sum over the remaining 256. -/
theorem sum_split {M : Type} [AddCommMonoid M] (f : Fin 384 → M) :
    ∑ k : Fin 384, f k
      = (∑ k : Fin 128, f ⟨k.val, by have := k.isLt; omega⟩) + ∑ k : Fin 256, f ⟨128 + k.val, by have := k.isLt; omega⟩ :=
  Fin.sum_univ_add (a := 128) (b := 256) f

/-- The pre-activation from ONE product over the joined row: `row` is the input row followed by the hidden row, `w`
    the unit's whole weight row. -/
theorem preOf_joined (xr : Fin 128 → EReal) (hr : Fin 256 → EReal) (w : Fin 384 → EReal) (b : EReal)
    (row : Fin 384 → EReal)
    (hrow : ∀ k : Fin 384, row k = if hk : k.val < 128 then xr ⟨k.val, hk⟩ else hr ⟨k.val - 128, by have := k.isLt; omega⟩) :
    (∑ k : Fin 384, row k * w k) + b
      = preOf xr (fun k => w ⟨k.val, by have := k.isLt; omega⟩) hr (fun k => w ⟨128 + k.val, by have := k.isLt; omega⟩) b := by
  unfold preOf
  rw [sum_split]
  congr 2
  · refine Finset.sum_congr rfl fun k _ => ?_
    rw [hrow, dif_pos (show (⟨k.val, _⟩ : Fin 384).val < 128 from k.isLt)]
  · refine Finset.sum_congr rfl fun k _ => ?_
    rw [hrow, dif_neg (show ¬ (⟨128 + k.val, _⟩ : Fin 384).val < 128 from by show ¬ 128 + k.val < 128; omega)]
    congr 2
    exact Fin.ext (by show 128 + k.val - 128 = k.val; omega)

end Cert.GatedCell

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.Block.lean ====
/-
  One block of the kernel, entry by entry.

  At a grid point the kernel holds 1024 batch rows: the input block `x` [1024, 128], the hidden block `h` [1024, 256],
  the previous cell block `ct` [1024, 256], the media block `md` [1024, 32], and whole the two halves of the shared
  weight matrix, `wx` [256, 128] and `wh` [256, 256], the media weights `wm` [256, 32] and the two bias vectors. Each
  of its three matrix products contracts the LAST axes of both operands, so the entry (p, j) of a product is the dot
  product of row p of the left block with row j of the weight block; a change of float format is the identity on the
  extended reals; a bias vector [256] cast to a row [1, 256] and spread over the 1024 rows reads, at (p, j), the
  bias at j. So at (p, j) the two stored values are the gated cell's new cell entry and new hidden entry
  (`Cert.GatedCell.cellOf`, `hiddenOf`) of row p's data and unit j's weights.
-/
import proofs.«107112_j21595095564497_1_alg».proof.Proof.Gen.KernelIdeal.Skeleton
import proofs.«107112_j21595095564497_1_alg».proof.Proof.Cell
import proofs.«107112_j21595095564497_1_alg».proof.Proof.LibMatmulRhsT
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx Cert.GatedCell

/-- A block of rows [A, K] against a weight block [B, K], both re-formatted (the identity here), the weight block
    first cast to its own shape, contracting both last axes into the zero accumulator: at (p, j) the dot product of
    row p with weight row j. -/
theorem rowsDotRows_apply {A K B : ℕ} (D : DotDims ⟨2, ![A, K]⟩ ⟨2, ![B, K]⟩ ⟨2, ![A, B]⟩) (hD : D = DotDims.transposedRhs A K B)
    (l : FVec Ideal ⟨2, ![A, K]⟩ .f32) (r : FVec Ideal ⟨2, ![B, K]⟩ .f32) (ht : FTy.bits .bf16 < FTy.bits .f32)
    (p : Fin A) (j : Fin B) :
    matmul D none (truncf .bf16 l ht) (truncf .bf16 r ht) (constant ⟨2, ![A, B]⟩ .f32 0x00000000#32) (ix2 p j)
      = ∑ k : Fin K, l (ix2 p k) * r (ix2 j k) := by
  subst hD
  exact Cert.LibMatmulRhsT.matmul_transposedRhs_zero_apply A K B none (truncf .bf16 l ht) (truncf .bf16 r ht) p j

/-- A bias vector [B] cast to a row [1, B] and spread over A rows reads, at (p, j), the bias at j. -/
theorem biasRows_apply {A B : ℕ} (v : FVec Ideal ⟨1, ![B]⟩ .f32) (h1 : (⟨1, ![B]⟩ : Shape).ShapeCasts ⟨2, ![1, B]⟩)
    (h2 : (⟨2, ![1, B]⟩ : Shape).Broadcasts ⟨2, ![A, B]⟩) (p : Fin A) (j : Fin B) :
    broadcastTo ⟨2, ![A, B]⟩ (shapeCast ⟨2, ![1, B]⟩ v h1) h2 (ix2 p j) = v (ix1 j) := by
  rw [broadcastTo_1b_ab_apply, shapeCast_a_1a_apply]

/-- The shared pre-activation at (p, j): row p of the input block against row j of the input weights, plus row p of
    the hidden block against row j of the hidden weights, plus the bias at j. -/
theorem pre_apply (x : Vec Ideal S1024x128 .f32) (h : Vec Ideal S1024x256 .f32) (wx : Vec Ideal S256x128 .f32)
    (wh : Vec Ideal S256x256 .f32) (b : Vec Ideal S256 .f32) (p : Fin 1024) (j : Fin 256) :
    k0_pay1 (F := Ideal) x h wx wh b (ix2 p j)
      = preOf (fun k => x (ix2 p k)) (fun k => wx (ix2 j k)) (fun k => h (ix2 p k)) (fun k => wh (ix2 j k)) (b (ix1 j)) := by
  unfold k0_pay1 preOf
  refine congrArg₂ (· + ·) (congrArg₂ (· + ·) ?_ ?_) ?_
  · refine (rowsDotRows_apply _ rfl x (shapeCast S256x128 wx Facts₀.shapeCasts_S256x128_S256x128) Facts₀.bitsLt_bf16_f32 p j).trans ?_
    rw [shapeCast_self]
  · refine (rowsDotRows_apply _ rfl h (shapeCast S256x256 wh Facts₀.shapeCasts_S256x256_S256x256) Facts₀.bitsLt_bf16_f32 p j).trans ?_
    rw [shapeCast_self]
  · exact biasRows_apply b _ _ p j

/-- The new cell entry at (p, j). -/
theorem cell_apply (x : Vec Ideal S1024x128 .f32) (h ct : Vec Ideal S1024x256 .f32) (wx : Vec Ideal S256x128 .f32)
    (wh : Vec Ideal S256x256 .f32) (b : Vec Ideal S256 .f32) (p : Fin 1024) (j : Fin 256) :
    k0_pay3 (F := Ideal) x h ct wx wh b (ix2 p j)
      = cellOf (ct (ix2 p j))
          (preOf (fun k => x (ix2 p k)) (fun k => wx (ix2 j k)) (fun k => h (ix2 p k)) (fun k => wh (ix2 j k)) (b (ix1 j))) := by
  rw [← pre_apply]
  rfl

/-- The side gate's pre-activation at (p, j): row p of the media block against row j of the media weights, plus the
    bias at j. -/
theorem side_apply (md : Vec Ideal S1024x32 .f32) (wm : Vec Ideal S256x32 .f32) (bm : Vec Ideal S256 .f32)
    (p : Fin 1024) (j : Fin 256) :
    addf (F := Ideal) (matmul dot_S1024x32_S256x32_S1024x256_1_1_0_0_n_n none (truncf .bf16 md Facts₀.bitsLt_bf16_f32)
        (truncf .bf16 wm Facts₀.bitsLt_bf16_f32) (constant S1024x256 .f32 0x00000000#32))
      (broadcastTo S1024x256 (shapeCast S1x256 bm Facts₀.shapeCasts_S256_S1x256) Facts₀.broadcasts_S1x256_S1024x256) (ix2 p j)
      = sideOf (fun k => md (ix2 p k)) (fun k => wm (ix2 j k)) (bm (ix1 j)) := by
  unfold sideOf
  refine congrArg₂ (· + ·) ?_ ?_
  · exact rowsDotRows_apply _ rfl md wm Facts₀.bitsLt_bf16_f32 p j
  · exact biasRows_apply bm _ _ p j

/-- The new hidden entry at (p, j). -/
theorem hidden_apply (x : Vec Ideal S1024x128 .f32) (h ct : Vec Ideal S1024x256 .f32) (wx : Vec Ideal S256x128 .f32)
    (wh : Vec Ideal S256x256 .f32) (b : Vec Ideal S256 .f32) (md : Vec Ideal S1024x32 .f32) (wm : Vec Ideal S256x32 .f32)
    (bm : Vec Ideal S256 .f32) (p : Fin 1024) (j : Fin 256) :
    k0_pay4 (F := Ideal) x h ct wx wh b md wm bm (ix2 p j)
      = hiddenOf (ct (ix2 p j))
          (preOf (fun k => x (ix2 p k)) (fun k => wx (ix2 j k)) (fun k => h (ix2 p k)) (fun k => wh (ix2 j k)) (b (ix1 j)))
          (sideOf (fun k => md (ix2 p k)) (fun k => wm (ix2 j k)) (bm (ix1 j))) := by
  unfold hiddenOf
  rw [← cell_apply x h ct wx wh b p j, ← pre_apply x h wx wh b p j, ← side_apply md wm bm p j]
  rfl

end Cert.KernelIdeal.Block

end
-- ==== Proof.Arrays.lean ====
/-
  The gated cell over whole arrays: what the two result arrays hold, as functions of the eight argument arrays.

  With `x` [65536, 128] the inputs, `md` [65536, 32] the media, `h` and `ct` [65536, 256] the previous hidden and cell
  states, `Wi` [256, 384] the shared weight matrix (its first 128 columns act on the input, the last 256 on the hidden
  state), `bi` its bias, `Wm` [256, 32] and `bm` the media gate's weights and bias: entry (b, j) of the new cell array
  and of the new hidden array is the gated cell (`Cert.GatedCell.cellOf`, `hiddenOf`) of batch row b and unit j.
-/
import proofs.«107112_j21595095564497_1_alg».proof.Proof.Cell

noncomputable section

namespace Cert.GatedCell

open Idealize.ShloMosaic Idealize.ShloMosaic.ValueIdx

/-- The shared pre-activation of batch row `b` and unit `j`. -/
def preAt (x : (⟨2, ![65536, 128]⟩ : Shape).Idx → EReal) (h : (⟨2, ![65536, 256]⟩ : Shape).Idx → EReal)
    (Wi : (⟨2, ![256, 384]⟩ : Shape).Idx → EReal) (bi : (⟨1, ![256]⟩ : Shape).Idx → EReal) (b : Fin 65536) (j : Fin 256) : EReal :=
  preOf (fun k => x (ix2 b k)) (fun k => Wi (ix2 j ⟨k.val, by have := k.isLt; omega⟩))
    (fun k => h (ix2 b k)) (fun k => Wi (ix2 j ⟨128 + k.val, by have := k.isLt; omega⟩)) (bi (ix1 j))

/-- The side gate's pre-activation of batch row `b` and unit `j`. -/
def sideAt (md : (⟨2, ![65536, 32]⟩ : Shape).Idx → EReal) (Wm : (⟨2, ![256, 32]⟩ : Shape).Idx → EReal)
    (bm : (⟨1, ![256]⟩ : Shape).Idx → EReal) (b : Fin 65536) (j : Fin 256) : EReal :=
  sideOf (fun k => md (ix2 b k)) (fun k => Wm (ix2 j k)) (bm (ix1 j))

/-- The new cell state, entry by entry. -/
def cellArr (x : (⟨2, ![65536, 128]⟩ : Shape).Idx → EReal) (h ct : (⟨2, ![65536, 256]⟩ : Shape).Idx → EReal)
    (Wi : (⟨2, ![256, 384]⟩ : Shape).Idx → EReal) (bi : (⟨1, ![256]⟩ : Shape).Idx → EReal) :
    (⟨2, ![65536, 256]⟩ : Shape).Idx → EReal :=
  fun i => cellOf (ct i) (preAt x h Wi bi (i 0) (i 1))

/-- The new hidden state, entry by entry. -/
def hiddenArr (x : (⟨2, ![65536, 128]⟩ : Shape).Idx → EReal) (md : (⟨2, ![65536, 32]⟩ : Shape).Idx → EReal)
    (h ct : (⟨2, ![65536, 256]⟩ : Shape).Idx → EReal) (Wi : (⟨2, ![256, 384]⟩ : Shape).Idx → EReal)
    (bi : (⟨1, ![256]⟩ : Shape).Idx → EReal) (Wm : (⟨2, ![256, 32]⟩ : Shape).Idx → EReal)
    (bm : (⟨1, ![256]⟩ : Shape).Idx → EReal) : (⟨2, ![65536, 256]⟩ : Shape).Idx → EReal :=
  fun i => hiddenOf (ct i) (preAt x h Wi bi (i 0) (i 1)) (sideAt md Wm bm (i 0) (i 1))

end Cert.GatedCell

end
-- ==== Proof.Blocks.lean ====
/-
  From the kernel's blocks to its two result arrays.

  The grid has 64 points; point t holds batch rows t·1024 … t·1024 + 1023 of the input, media, hidden and cell
  arrays, and whole — block (0, 0) at every point — the two column halves of the shared weight matrix (columns
  0 … 127 and 128 … 383, cut out before the launch), both bias vectors and the media weights. It writes back rows
  t·1024 … t·1024 + 1023 of the new hidden array and of the new cell array. Entry (p, j) of what it writes is the
  gated cell of block row p and unit j (`Block.hidden_apply`, `Block.cell_apply`), and block row p of point t is
  batch row t·1024 + p; so each written block is that block of `hiddenArr` / `cellArr` of the argument arrays. The 64
  row blocks cover all 65536 rows (row r lies in the block of point r / 1024), so the result arrays are those two
  functions.
-/
import proofs.«107112_j21595095564497_1_alg».proof.Proof.Gen.KernelIdeal.Value
import proofs.«107112_j21595095564497_1_alg».proof.Proof.Block
import proofs.«107112_j21595095564497_1_alg».proof.Proof.Arrays
import Idealize.ShloMosaic.Lib.StableHlo.Run
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Cert.GatedCell
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The input half of the weight matrix, as the launch finds it: columns 0 … 127 of the argument. -/
theorem V_wx (c : Dev nD) :
    (V m c main_v0 : S256x128.Idx → EReal)
      = extractStridedSlice S256x128 ![0, 0] (m ((c : Thread nD τ).loc main_arg4)) Facts₀.slices_S256x384_S256x128_0_0 := by
  dsimp only [Gen.V, Gen.hostOps0]; after_results

/-- The hidden half of the weight matrix, as the launch finds it: columns 128 … 383 of the argument. -/
theorem V_wh (c : Dev nD) :
    (V m c main_v1 : S256x256.Idx → EReal)
      = extractStridedSlice S256x256 ![0, 128] (m ((c : Thread nD τ).loc main_arg4)) Facts₀.slices_S256x384_S256x256_0_128 := by
  dsimp only [Gen.V, Gen.hostOps0]; after_results

/-- The printed index maps over the grid: the batch-tiled windows sit at block row t, block column 0; the whole
    windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- What the blocks at point `t` hold, in terms of the argument arrays: for a block entry `y` and the array entry `i`
    in batch row t·1024 + (row of y) and the same column. -/
theorem blocks_read (c : Dev nD) (t : Fin cfg0.N) (y : S1024x256.Idx) (i : S65536x256.Idx)
    (hi0 : (i 0).val = t.val * 1024 + (y 0).val) (hi1 : (i 1).val = (y 1).val) :
    (∀ k : Fin 128, iblk m c 0 t (ix2 (y 0) k) = (m ((c : Thread nD τ).loc main_arg0) : S65536x128.Idx → EReal) (ix2 (i 0) k))
    ∧ (∀ k : Fin 32, iblk m c 1 t (ix2 (y 0) k) = (m ((c : Thread nD τ).loc main_arg1) : S65536x32.Idx → EReal) (ix2 (i 0) k))
    ∧ (∀ k : Fin 256, iblk m c 2 t (ix2 (y 0) k) = (m ((c : Thread nD τ).loc main_arg2) : S65536x256.Idx → EReal) (ix2 (i 0) k))
    ∧ iblk m c 3 t y = (m ((c : Thread nD τ).loc main_arg3) : S65536x256.Idx → EReal) i
    ∧ (∀ (j : Fin 256) (k : Fin 128), iblk m c 4 t (ix2 j k)
        = (m ((c : Thread nD τ).loc main_arg4) : S256x384.Idx → EReal) (ix2 j ⟨k.val, by have := k.isLt; omega⟩))
    ∧ (∀ (j : Fin 256) (k : Fin 256), iblk m c 5 t (ix2 j k)
        = (m ((c : Thread nD τ).loc main_arg4) : S256x384.Idx → EReal) (ix2 j ⟨128 + k.val, by have := k.isLt; omega⟩))
    ∧ (iblk m c 6 t : S256.Idx → EReal) = m ((c : Thread nD τ).loc main_arg5)
    ∧ (iblk m c 7 t : S256x32.Idx → EReal) = m ((c : Thread nD τ).loc main_arg6)
    ∧ (iblk m c 8 t : S256.Idx → EReal) = m ((c : Thread nD τ).loc main_arg7) := by
  obtain ⟨e00, e01, e10, e11, e20, e21, e30, e31, e40, e41, e50, e51, e60, e70, e71, e80, -, -, -, -⟩ := idx_facts t
  refine ⟨fun k => ?_, fun k => ?_, fun k => ?_, ?_, fun j k => ?_, fun j k => ?_, funext fun z => ?_, funext fun z => ?_, funext fun z => ?_⟩
  · show V m c main_arg0 (((cfg0.win 0).blk t).view.emb (ix2 (y 0) k)) = _
    rw [V_main_arg0]
    refine congrArg _ (funext fun a => Fin.ext ?_)
    match a with
    | ⟨0, _⟩ => show win0_0.index t (0 : Fin 2) * 1024 + 1 * (y 0).val = (i 0).val; omega
    | ⟨1, _⟩ => show win0_0.index t (1 : Fin 2) * 128 + 1 * k.val = k.val; omega
  · show V m c main_arg1 (((cfg0.win 1).blk t).view.emb (ix2 (y 0) k)) = _
    rw [V_main_arg1]
    refine congrArg _ (funext fun a => Fin.ext ?_)
    match a with
    | ⟨0, _⟩ => show win0_1.index t (0 : Fin 2) * 1024 + 1 * (y 0).val = (i 0).val; omega
    | ⟨1, _⟩ => show win0_1.index t (1 : Fin 2) * 32 + 1 * k.val = k.val; omega
  · show V m c main_arg2 (((cfg0.win 2).blk t).view.emb (ix2 (y 0) k)) = _
    rw [V_main_arg2]
    refine congrArg _ (funext fun a => Fin.ext ?_)
    match a with
    | ⟨0, _⟩ => show win0_2.index t (0 : Fin 2) * 1024 + 1 * (y 0).val = (i 0).val; omega
    | ⟨1, _⟩ => show win0_2.index t (1 : Fin 2) * 256 + 1 * k.val = k.val; omega
  · show V m c main_arg3 (((cfg0.win 3).blk t).view.emb y) = _
    rw [V_main_arg3]
    refine congrArg _ (funext fun a => Fin.ext ?_)
    match a with
    | ⟨0, _⟩ => show win0_3.index t (0 : Fin 2) * 1024 + 1 * (y 0).val = (i 0).val; omega
    | ⟨1, _⟩ => show win0_3.index t (1 : Fin 2) * 256 + 1 * (y 1).val = (i 1).val; omega
  · show V m c main_v0 (((cfg0.win 4).blk t).view.emb (ix2 j k)) = _
    have he : ((cfg0.win 4).blk t).view.emb (ix2 j k) = ix2 j k := funext fun a => Fin.ext (by
      match a with
      | ⟨0, _⟩ => show win0_4.index t (0 : Fin 2) * 256 + 1 * j.val = j.val; omega
      | ⟨1, _⟩ => show win0_4.index t (1 : Fin 2) * 128 + 1 * k.val = k.val; omega)
    rw [he, V_wx]
    exact slice2_axis1_apply 0 _ _ j k _ (Nat.zero_add _).symm
  · show V m c main_v1 (((cfg0.win 5).blk t).view.emb (ix2 j k)) = _
    have he : ((cfg0.win 5).blk t).view.emb (ix2 j k) = ix2 j k := funext fun a => Fin.ext (by
      match a with
      | ⟨0, _⟩ => show win0_5.index t (0 : Fin 2) * 256 + 1 * j.val = j.val; omega
      | ⟨1, _⟩ => show win0_5.index t (1 : Fin 2) * 256 + 1 * k.val = k.val; omega)
    rw [he, V_wh]
    exact slice2_axis1_apply 128 _ _ j k _ rfl
  · show V m c main_arg5 (((cfg0.win 6).blk t).view.emb z) = _
    rw [V_main_arg5]
    refine congrArg _ (funext fun a => Fin.ext ?_)
    match a with
    | ⟨0, _⟩ => show win0_6.index t (0 : Fin 1) * 256 + 1 * (z 0).val = (z 0).val; omega
  · show V m c main_arg6 (((cfg0.win 7).blk t).view.emb z) = _
    rw [V_main_arg6]
    refine congrArg _ (funext fun a => Fin.ext ?_)
    match a with
    | ⟨0, _⟩ => show win0_7.index t (0 : Fin 2) * 256 + 1 * (z 0).val = (z 0).val; omega
    | ⟨1, _⟩ => show win0_7.index t (1 : Fin 2) * 32 + 1 * (z 1).val = (z 1).val; omega
  · show V m c main_arg7 (((cfg0.win 8).blk t).view.emb z) = _
    rw [V_main_arg7]
    refine congrArg _ (funext fun a => Fin.ext ?_)
    match a with
    | ⟨0, _⟩ => show win0_8.index t (0 : Fin 1) * 256 + 1 * (z 0).val = (z 0).val; omega

/-- A block entry of the new cell state is the gated cell's, when the blocks hold what the arrays hold. -/
theorem cell_point (x : Vec Ideal S1024x128 .f32) (h ct : Vec Ideal S1024x256 .f32) (wx : Vec Ideal S256x128 .f32)
    (wh : Vec Ideal S256x256 .f32) (b : Vec Ideal S256 .f32)
    (X : S65536x128.Idx → EReal) (H CT : S65536x256.Idx → EReal) (Wi : S256x384.Idx → EReal) (Bi : S256.Idx → EReal)
    (y : S1024x256.Idx) (i : S65536x256.Idx) (hi1 : (i 1).val = (y 1).val)
    (hx : ∀ k : Fin 128, x (ix2 (y 0) k) = X (ix2 (i 0) k))
    (hh : ∀ k : Fin 256, h (ix2 (y 0) k) = H (ix2 (i 0) k))
    (hct : ct y = CT i)
    (hwx : ∀ (j : Fin 256) (k : Fin 128), wx (ix2 j k) = Wi (ix2 j ⟨k.val, by have := k.isLt; omega⟩))
    (hwh : ∀ (j : Fin 256) (k : Fin 256), wh (ix2 j k) = Wi (ix2 j ⟨128 + k.val, by have := k.isLt; omega⟩))
    (hb : b = Bi) :
    k0_pay3 (F := Ideal) x h ct wx wh b y = cellArr X H CT Wi Bi i := by
  obtain ⟨p, j, rfl⟩ : ∃ (p : Fin 1024) (j : Fin 256), y = ix2 p j := ⟨y 0, y 1, eq_ix2 y⟩
  have hx' : ∀ k : Fin 128, x (ix2 p k) = X (ix2 (i 0) k) := hx
  have hh' : ∀ k : Fin 256, h (ix2 p k) = H (ix2 (i 0) k) := hh
  have e1 : i 1 = j := Fin.ext hi1
  subst hb
  rw [Block.cell_apply]
  unfold cellArr preAt
  rw [e1, hct]
  simp only [hx', hh', hwx, hwh]

/-- A block entry of the new hidden state is the gated cell's, when the blocks hold what the arrays hold. -/
theorem hidden_point (x : Vec Ideal S1024x128 .f32) (md : Vec Ideal S1024x32 .f32) (h ct : Vec Ideal S1024x256 .f32)
    (wx : Vec Ideal S256x128 .f32) (wh : Vec Ideal S256x256 .f32) (b : Vec Ideal S256 .f32) (wm : Vec Ideal S256x32 .f32)
    (bm : Vec Ideal S256 .f32)
    (X : S65536x128.Idx → EReal) (MD : S65536x32.Idx → EReal) (H CT : S65536x256.Idx → EReal) (Wi : S256x384.Idx → EReal)
    (Bi : S256.Idx → EReal) (Wm : S256x32.Idx → EReal) (Bm : S256.Idx → EReal)
    (y : S1024x256.Idx) (i : S65536x256.Idx) (hi1 : (i 1).val = (y 1).val)
    (hx : ∀ k : Fin 128, x (ix2 (y 0) k) = X (ix2 (i 0) k))
    (hmd : ∀ k : Fin 32, md (ix2 (y 0) k) = MD (ix2 (i 0) k))
    (hh : ∀ k : Fin 256, h (ix2 (y 0) k) = H (ix2 (i 0) k))
    (hct : ct y = CT i)
    (hwx : ∀ (j : Fin 256) (k : Fin 128), wx (ix2 j k) = Wi (ix2 j ⟨k.val, by have := k.isLt; omega⟩))
    (hwh : ∀ (j : Fin 256) (k : Fin 256), wh (ix2 j k) = Wi (ix2 j ⟨128 + k.val, by have := k.isLt; omega⟩))
    (hb : b = Bi) (hwm : wm = Wm) (hbm : bm = Bm) :
    k0_pay4 (F := Ideal) x h ct wx wh b md wm bm y = hiddenArr X MD H CT Wi Bi Wm Bm i := by
  obtain ⟨p, j, rfl⟩ : ∃ (p : Fin 1024) (j : Fin 256), y = ix2 p j := ⟨y 0, y 1, eq_ix2 y⟩
  have hx' : ∀ k : Fin 128, x (ix2 p k) = X (ix2 (i 0) k) := hx
  have hmd' : ∀ k : Fin 32, md (ix2 p k) = MD (ix2 (i 0) k) := hmd
  have hh' : ∀ k : Fin 256, h (ix2 p k) = H (ix2 (i 0) k) := hh
  have e1 : i 1 = j := Fin.ext hi1
  subst hb hwm hbm
  rw [Block.hidden_apply]
  unfold hiddenArr preAt sideAt
  rw [e1, hct]
  simp only [hx', hmd', hh', hwx, hwh]

/-- WHAT POINT `t` WRITES BACK to the new hidden array is block `t` of `hiddenArr` of the argument arrays. -/
theorem flushed_hidden (c : Dev nD) (t : Fin cfg0.N) :
    (dats m 0 c).flushed 9 t = ((cfg0.win 9).blk t).view.read (Elt Ideal)
      (hiddenArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) := by
  rw [Value.flushed9]
  unfold out0_9
  rw [View.canon_unit_zero hz2]
  simp only [View.ld_unit_zero (S := S1024x128) hz2, View.ld_unit_zero (S := S1024x256) hz2, View.ld_unit_zero (S := S1024x32) hz2,
    View.ld_unit_zero (S := S256x128) hz2, View.ld_unit_zero (S := S256x256) hz2, View.ld_unit_zero (S := S256x32) hz2,
    View.ld_unit_zero (S := S256) hz1]
  funext y
  obtain ⟨-, -, -, -, -, -, -, -, -, -, -, -, -, -, -, -, e90, e91, -, -⟩ := idx_facts t
  have hi0 : ((((cfg0.win 9).blk t).view.emb y) 0).val = t.val * 1024 + (y 0).val := by
    show win0_9.index t (0 : Fin 2) * 1024 + 1 * (y 0).val = _; omega
  have hi1 : ((((cfg0.win 9).blk t).view.emb y) 1).val = (y 1).val := by
    show win0_9.index t (1 : Fin 2) * 256 + 1 * (y 1).val = _; omega
  obtain ⟨hx, hmd, hh, hct, hwx, hwh, hb, hwm, hbm⟩ := blocks_read m c t y (((cfg0.win 9).blk t).view.emb y) hi0 hi1
  exact hidden_point (iblk m c 0 t) (iblk m c 1 t) (iblk m c 2 t) (iblk m c 3 t) (iblk m c 4 t) (iblk m c 5 t) (iblk m c 6 t)
    (iblk m c 7 t) (iblk m c 8 t) _ _ _ _ _ _ _ _ y (((cfg0.win 9).blk t).view.emb y) hi1 hx hmd hh hct hwx hwh hb hwm hbm

/-- WHAT POINT `t` WRITES BACK to the new cell array is block `t` of `cellArr` of the argument arrays. -/
theorem flushed_cell (c : Dev nD) (t : Fin cfg0.N) :
    (dats m 0 c).flushed 10 t = ((cfg0.win 10).blk t).view.read (Elt Ideal)
      (cellArr (m ((c : Thread nD τ).loc main_arg0)) (m ((c : Thread nD τ).loc main_arg2)) (m ((c : Thread nD τ).loc main_arg3))
        (m ((c : Thread nD τ).loc main_arg4)) (m ((c : Thread nD τ).loc main_arg5))) := by
  rw [Value.flushed10]
  unfold out0_10
  rw [View.canon_unit_zero hz2]
  simp only [View.ld_unit_zero (S := S1024x128) hz2, View.ld_unit_zero (S := S1024x256) hz2,
    View.ld_unit_zero (S := S256x128) hz2, View.ld_unit_zero (S := S256x256) hz2, View.ld_unit_zero (S := S256) hz1]
  funext y
  obtain ⟨-, -, -, -, -, -, -, -, -, -, -, -, -, -, -, -, -, -, e100, e101⟩ := idx_facts t
  have hi0 : ((((cfg0.win 10).blk t).view.emb y) 0).val = t.val * 1024 + (y 0).val := by
    show win0_10.index t (0 : Fin 2) * 1024 + 1 * (y 0).val = _; omega
  have hi1 : ((((cfg0.win 10).blk t).view.emb y) 1).val = (y 1).val := by
    show win0_10.index t (1 : Fin 2) * 256 + 1 * (y 1).val = _; omega
  obtain ⟨hx, -, hh, hct, hwx, hwh, hb, -, -⟩ := blocks_read m c t y (((cfg0.win 10).blk t).view.emb y) hi0 hi1
  exact cell_point (iblk m c 0 t) (iblk m c 2 t) (iblk m c 3 t) (iblk m c 4 t) (iblk m c 5 t) (iblk m c 6 t)
    _ _ _ _ _ y (((cfg0.win 10).blk t).view.emb y) hi1 hx hh hct hwx hwh hb

/-- An entry of the new hidden array is in point `t`'s block iff each coordinate is in the block's range on its axis. -/
theorem mem_blk_hidden (t : Fin cfg0.N) (i : S65536x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v2_0).slice (win0_9.rect t)).set ↔ _
  rw [View.set_slice_whole, Rect.mem_set_unit]
  exact Iff.rfl

/-- The same for the new cell array. -/
theorem mem_blk_cell (t : Fin cfg0.N) (i : S65536x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v2_1).slice (win0_10.rect t)).set ↔ _
  rw [View.set_slice_whole, Rect.mem_set_unit]
  exact Iff.rfl

/-- Row r of either result array lies in the block of point r / 1024. -/
theorem pointOf_lt (i : S65536x256.Idx) : (i 0).val / 1024 < cfg0.N := by
  have h : (i 0).val < 65536 := (i 0).isLt
  rw [show cfg0.N = 64 from N_0]
  omega

/-- THE NEW HIDDEN ARRAY after the run. -/
theorem final_hidden (c : Dev nD) : (dats m 0 c).arrAt 9 cfg0.N
    = hiddenArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (dats m 0 c).arrAt_eq_of_cover 9 _ (fun t _ => flushed_hidden m c t) fun i => by
    have h0 : (i 0).val < 65536 := (i 0).isLt
    have h1 : (i 1).val < 256 := (i 1).isLt
    refine ⟨⟨(i 0).val / 1024, pointOf_lt i⟩, flush0_9 _, ?_⟩
    obtain ⟨-, -, -, -, -, -, -, -, -, -, -, -, -, -, -, -, e90, e91, -, -⟩ := idx_facts ⟨(i 0).val / 1024, pointOf_lt i⟩
    rw [mem_blk_hidden]
    intro a
    match a with
    | ⟨0, _⟩ =>
      show win0_9.index ⟨(i 0).val / 1024, pointOf_lt i⟩ (0 : Fin 2) * 1024 ≤ (i 0).val ∧ (i 0).val < win0_9.index ⟨(i 0).val / 1024, pointOf_lt i⟩ (0 : Fin 2) * 1024 + 1024
      rw [e90]; show (i 0).val / 1024 * 1024 ≤ (i 0).val ∧ (i 0).val < (i 0).val / 1024 * 1024 + 1024; omega
    | ⟨1, _⟩ =>
      show win0_9.index ⟨(i 0).val / 1024, pointOf_lt i⟩ (1 : Fin 2) * 256 ≤ (i 1).val ∧ (i 1).val < win0_9.index ⟨(i 0).val / 1024, pointOf_lt i⟩ (1 : Fin 2) * 256 + 256
      rw [e91]; omega

/-- THE NEW CELL ARRAY after the run. -/
theorem final_cell (c : Dev nD) : (dats m 0 c).arrAt 10 cfg0.N
    = cellArr (m ((c : Thread nD τ).loc main_arg0)) (m ((c : Thread nD τ).loc main_arg2)) (m ((c : Thread nD τ).loc main_arg3))
        (m ((c : Thread nD τ).loc main_arg4)) (m ((c : Thread nD τ).loc main_arg5)) :=
  (dats m 0 c).arrAt_eq_of_cover 10 _ (fun t _ => flushed_cell m c t) fun i => by
    have h0 : (i 0).val < 65536 := (i 0).isLt
    have h1 : (i 1).val < 256 := (i 1).isLt
    refine ⟨⟨(i 0).val / 1024, pointOf_lt i⟩, flush0_10 _, ?_⟩
    obtain ⟨-, -, -, -, -, -, -, -, -, -, -, -, -, -, -, -, -, -, e100, e101⟩ := idx_facts ⟨(i 0).val / 1024, pointOf_lt i⟩
    rw [mem_blk_cell]
    intro a
    match a with
    | ⟨0, _⟩ =>
      show win0_10.index ⟨(i 0).val / 1024, pointOf_lt i⟩ (0 : Fin 2) * 1024 ≤ (i 0).val ∧ (i 0).val < win0_10.index ⟨(i 0).val / 1024, pointOf_lt i⟩ (0 : Fin 2) * 1024 + 1024
      rw [e100]; show (i 0).val / 1024 * 1024 ≤ (i 0).val ∧ (i 0).val < (i 0).val / 1024 * 1024 + 1024; omega
    | ⟨1, _⟩ =>
      show win0_10.index ⟨(i 0).val / 1024, pointOf_lt i⟩ (1 : Fin 2) * 256 ≤ (i 1).val ∧ (i 1).val < win0_10.index ⟨(i 0).val / 1024, pointOf_lt i⟩ (1 : Fin 2) * 256 + 256
      rw [e101]; omega

/-- The kernel's run, read: the first two results are the new hidden array, the third the new cell array, the
    arguments unchanged. -/
theorem run : θ_run defs (onTc (τ := τ) (main (F := Ideal))) ⟨m, fun _ => 0, ρ⟩ fun r => ∀ c : Dev nD,
      r.2.mem ((c : Thread nD τ).loc main_v2_0)
        = hiddenArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_v2_0)
        = hiddenArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_v2_1)
        = cellArr (m ((c : Thread nD τ).loc main_arg0)) (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_hidden m c), (h c).1.trans (final_hidden m c),
      (h c).2.1.trans (final_cell m c), (h c).2.2⟩)
    (Value.run_blocks m ρ)

end Cert.KernelIdeal.Blocks

end
-- ==== Proof.LibLogistic.lean ====
/-
  A sigmoid spelt out on the host — negate, exponential, add one, divide into one, both ones the float 1.0 — is the
  logistic function on the extended reals.

  The pattern 0x3F800000 has sign 0, exponent field 127 and fraction field 0, so it denotes
  (2^23 + 0) · 2^(127 − 127 − 23) = 1. The logistic function is by definition the quotient 1 / (1 + e^(−x)) taken
  with the extended reals' division (at −∞ the denominator is +∞ and the value 0; at +∞ the denominator is 1 and the
  value 1), so once both literals read as 1 the spelt expression IS the logistic function, with no case split.
-/
import Idealize.ShloMosaic.PureOps.Ideal
import Idealize.ShloMosaic.PureOps.Ideal.Laws

noncomputable section

namespace Cert.LibLogistic

open Idealize.ShloMosaic

/-- The float pattern of 1.0 denotes the extended real 1: (2^23 + 0) · 2^(127 − 127 − 23). -/
theorem one_f32 : Ideal.ofBits .f32 0x3F800000#32 = 1 := by
  simp [Ideal.ofBits, Ideal.ieee]
  rw [← EReal.coe_mul]
  norm_num

/-- 1 / (1 + e^(−x)), both ones spelt by the pattern of 1.0, is the logistic function of x. -/
theorem sigmoid_spelt (x : EReal) :
    Ideal.div (Ideal.ofBits .f32 0x3F800000#32) (Ideal.ofBits .f32 0x3F800000#32 + Ideal.exp (-x)) = Ideal.logistic x := by
  rw [one_f32]; rfl

end Cert.LibLogistic

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowRead.lean ====
/-
  Rows of matrices, read through the operations a row-wise network is printed with, at the ideal values.

  A value of shape [A, n] is read one row at a time: `rowOf X p` is row `p` as a function of the column, and
  `mat W` is a weight matrix as a function of row and column. Each lemma says what one operation does to a row:
  a plain matrix product (a kernel's `tpu.matmul` into the zero accumulator, the host's `dot_general`) is the
  linear layer `j ↦ Σ_i h i · W i j` of the row; a maximum with the zero splat is the rectifier of the row; a
  change of float format and a shape cast to the same shape change nothing; a slice of columns takes those columns
  of the row; two matrices set side by side give the first's row followed by the second's.
-/
import Idealize.ShloMosaic.PureOps.Ideal.Laws
import Idealize.ShloMosaic.Lib.ValueIdx
import Idealize.ShloMosaic.Lib.Pipeline.Value
import proofs.«107112_j21595095564497_1_alg».proof.Proof.LibPlainMatmul

noncomputable section

namespace RowRead

open Idealize.ShloMosaic Idealize.ShloMosaic.ValueIdx Finset

/-- Row `p` of an [A, n] value, as a function of the column. -/
def rowOf {A n : ℕ} (X : (⟨2, ![A, n]⟩ : Shape).Idx → EReal) (p : Fin A) : Fin n → EReal := fun k => X (ix2 p k)

/-- A matrix as a function of row and column. -/
def mat {a b : ℕ} (W : (⟨2, ![a, b]⟩ : Shape).Idx → EReal) : Fin a → Fin b → EReal := fun i j => W (ix2 i j)

/-- Three matrices of one shape, by their place. -/
def mats3 {a b : ℕ} (u0 u1 u2 : (⟨2, ![a, b]⟩ : Shape).Idx → EReal) : Fin 3 → Fin a → Fin b → EReal :=
  fun n => mat (![u0, u1, u2] n)

/-- A kernel's plain [A, K] × [K, B] product into the zero accumulator: row `p` is the linear layer of the left
    operand's row `p`. -/
theorem rowOf_matmul {A K B : ℕ} {φ₁ φ₂ : FTy} (D : DotDims ⟨2, ![A, K]⟩ ⟨2, ![K, B]⟩ ⟨2, ![A, B]⟩) (hD : D = DotDims.plain A K B)
    (prec : Option ContractPrecision) (lhs : FVec Ideal ⟨2, ![A, K]⟩ φ₁) (rhs : FVec Ideal ⟨2, ![K, B]⟩ φ₂) (p : Fin A) :
    rowOf (FloatOps.matmul D prec lhs rhs (constant ⟨2, ![A, B]⟩ .f32 0x00000000#32)) p = fun j => ∑ i, rowOf lhs p i * mat rhs i j := by
  subst hD
  funext j
  exact matmul_plain_zero_apply A K B prec lhs rhs p j

/-- The host's plain [A, K] × [K, B] `dot_general`: the same. -/
theorem rowOf_dotGeneral {A K B : ℕ} {φ₁ φ₂ : FTy} (D : DotDims ⟨2, ![A, K]⟩ ⟨2, ![K, B]⟩ ⟨2, ![A, B]⟩) (hD : D = DotDims.plain A K B)
    (prec : Option ContractPrecision) (sched : HostSchedule) (lhs : FVec Ideal ⟨2, ![A, K]⟩ φ₁) (rhs : FVec Ideal ⟨2, ![K, B]⟩ φ₂) (p : Fin A) :
    rowOf (FloatOps.dotGeneral D prec sched lhs rhs) p = fun j => ∑ i, rowOf lhs p i * mat rhs i j := by
  subst hD
  funext j
  show FloatOps.dotGeneral (DotDims.plain A K B) prec sched lhs rhs (ix2 p j) = ∑ k : Fin K, lhs (ix2 p k) * rhs (ix2 k j)
  rw [Ideal.dotGeneral_apply, ← Equiv.sum_comp (contrEquiv1 (DotDims.plain A K B) K rfl rfl).symm]
  refine sum_congr rfl fun k _ => ?_
  rw [plain_lhsIdx, plain_rhsIdx]

/-- A maximum with a value that is zero everywhere is the rectifier of the row. -/
theorem rowOf_max_zero {A n : ℕ} (v z : (⟨2, ![A, n]⟩ : Shape).Idx → EReal) (hz : ∀ i, z i = 0) (p : Fin A) :
    rowOf (fun i => max (v i) (z i)) p = fun j => max (rowOf v p j) 0 := by
  funext j
  show max (v (ix2 p j)) (z (ix2 p j)) = max (v (ix2 p j)) 0
  rw [hz]

/-- A kernel's maximum with the splat of a scalar that is zero: the rectifier of the row. -/
theorem rowOf_max_splat {A n : ℕ} {φ : FTy} (v : FVec Ideal ⟨2, ![A, n]⟩ φ) (z : Ideal φ) (hz : z = (0 : EReal)) (p : Fin A) :
    rowOf (maximumf v (broadcast ⟨2, ![A, n]⟩ z)) p = fun j => max (rowOf v p j) 0 :=
  rowOf_max_zero v (broadcast ⟨2, ![A, n]⟩ z) (fun _ => hz) p

/-- The host's maximum with a scalar zero constant broadcast to the shape: the same. -/
theorem rowOf_max_host {A n : ℕ} (v : FVec Ideal ⟨2, ![A, n]⟩ .f32)
    (hb : (⟨0, ![]⟩ : Shape).BroadcastsInDim ⟨2, ![A, n]⟩ (![] : Fin 0 → Fin 2)) (p : Fin A) :
    rowOf (maximumf v (broadcastInDim ⟨2, ![A, n]⟩ ![] hb (constant (F := Ideal) ⟨0, ![]⟩ .f32 0x00000000#32))) p
      = fun j => max (rowOf v p j) 0 :=
  rowOf_max_zero v _ (fun i => by
    rw [broadcastInDim_apply ![] hb _ i ix0 (fun a => a.elim0)]
    exact Ideal.ofBits_zero_f32) p

/-- A change of float format changes nothing. -/
theorem rowOf_truncf {A n : ℕ} {φ ψ : FTy} (v : FVec Ideal ⟨2, ![A, n]⟩ φ) (h : ψ.bits < φ.bits) (p : Fin A) :
    rowOf (truncf ψ v h : FVec Ideal ⟨2, ![A, n]⟩ ψ) p = rowOf v p := rfl

/-- A slice of `n` columns from column `o` on takes those columns of the row. -/
theorem rowOf_slice {A N n : ℕ} (o : ℕ) (ho : o + n ≤ N) (X : (⟨2, ![A, N]⟩ : Shape).Idx → EReal)
    (h : (⟨2, ![A, N]⟩ : Shape).Slices ![0, o] ⟨2, ![A, n]⟩) (p : Fin A) :
    rowOf (extractStridedSlice ⟨2, ![A, n]⟩ ![0, o] X h) p = fun k => rowOf X p ⟨o + k.val, by have := k.isLt; omega⟩ := by
  funext k
  exact extractStridedSlice_apply ![0, o] X h (ix2 p k) (ix2 p ⟨o + k.val, by have := k.isLt; omega⟩) (fun a => by
    match a with
    | ⟨0, _⟩ => show p.val = 0 + p.val; omega
    | ⟨1, _⟩ => rfl)

/-- A slice of the first `n` columns. -/
theorem rowOf_slice_front {A N n : ℕ} (ho : n ≤ N) (X : (⟨2, ![A, N]⟩ : Shape).Idx → EReal)
    (h : (⟨2, ![A, N]⟩ : Shape).Slices ![0, 0] ⟨2, ![A, n]⟩) (p : Fin A) :
    rowOf (extractStridedSlice ⟨2, ![A, n]⟩ ![0, 0] X h) p = fun k => rowOf X p ⟨k.val, by have := k.isLt; omega⟩ := by
  rw [rowOf_slice 0 (by omega)]
  funext k
  exact congrArg (fun q => X (ix2 p q)) (Fin.ext (Nat.zero_add _))

/-- Two matrices set side by side: the first's row, then the second's. -/
theorem rowOf_beside {A n₁ n₂ N : ℕ} (x₁ : (⟨2, ![A, n₁]⟩ : Shape).Idx → EReal) (x₂ : (⟨2, ![A, n₂]⟩ : Shape).Idx → EReal)
    (h : Shape.Concatenates [(⟨2, ![A, n₁]⟩ : Shape), ⟨2, ![A, n₂]⟩] ⟨2, ![A, N]⟩ 1) (hN : n₁ + n₂ = N) (p : Fin A) :
    rowOf (concatenate ⟨2, ![A, N]⟩ 1 [⟨⟨2, ![A, n₁]⟩, x₁⟩, ⟨⟨2, ![A, n₂]⟩, x₂⟩] h) p
      = fun k => if hk : k.val < n₁ then rowOf x₁ p ⟨k.val, hk⟩ else rowOf x₂ p ⟨k.val - n₁, by have := k.isLt; omega⟩ := by
  funext k
  by_cases hk : k.val < n₁
  · rw [dif_pos hk]
    exact concatenate_pair_apply_left 1 x₁ x₂ h (ix2 p k) rfl (ix2 p ⟨k.val, hk⟩) (fun b => by
      match b with
      | ⟨0, _⟩ => rfl
      | ⟨1, _⟩ => rfl)
  · rw [dif_neg hk]
    exact concatenate_pair_apply_right 1 x₁ x₂ h (ix2 p k) rfl rfl (ix2 p ⟨k.val - n₁, by have := k.isLt; omega⟩) (fun b hb => by
      match b with
      | ⟨0, _⟩ => rfl
      | ⟨1, _⟩ => exact absurd rfl hb) (by show k.val - n₁ + n₁ = k.val; omega)

end RowRead

end
-- ==== Proof.RefCell.lean ====
/-
  The reference computes the gated cell.

  The reference joins each input row with its hidden row (a row of 384 entries), multiplies by the transposed weight
  matrix — entry (b, j) is Σ_k row_b(k) · Wi(j, k) over the 384 columns — and adds the bias; that is the shared
  pre-activation, the sum over 384 columns being the sum over the 128 input columns plus the sum over the 256 hidden
  columns. Its sigmoid is spelt 1 / (1 + e^(−p)) with both ones the float 1.0, which is the logistic function. The
  media gate is the same with a product over 32 columns. The remaining operations are entry by entry, the same on
  both sides.
-/
import proofs.«107112_j21595095564497_1_alg».proof.Proof.Gen.ReferenceIdeal.Read
import proofs.«107112_j21595095564497_1_alg».proof.Proof.Arrays
import proofs.«107112_j21595095564497_1_alg».proof.Proof.LibLogistic
import proofs.«107112_j21595095564497_1_alg».proof.Proof.LibRowRead
import Idealize.ShloMosaic.Lib.ValueLayout

noncomputable section

namespace Cert.ReferenceIdeal.RefCell

open Cert.ReferenceIdeal Cert.ReferenceIdeal.Read Idealize.ShloMosaic Idealize.ShloMosaic.ValueIdx Cert.GatedCell

/-- Row b of the joined array: the input row, then the hidden row. -/
theorem joined_apply (x0 : (⟨S65536x128, .f32⟩ : BufTy).Contents (Elt Ideal)) (x2 : (⟨S65536x256, .f32⟩ : BufTy).Contents (Elt Ideal))
    (b : Fin 65536) (k : Fin 384) :
    val_main_v0 (F := Ideal) x0 x2 (ix2 b k)
      = if hk : k.val < 128 then x0 (ix2 b ⟨k.val, hk⟩) else x2 (ix2 b ⟨k.val - 128, by have := k.isLt; omega⟩) :=
  congrFun (RowRead.rowOf_beside x0 x2 Facts₀.concatenates_S65536x128_S65536x256_S65536x384_d1 rfl b) k

/-- The shared pre-activation at (b, j). -/
theorem pre_apply (x0 : (⟨S65536x128, .f32⟩ : BufTy).Contents (Elt Ideal)) (x2 : (⟨S65536x256, .f32⟩ : BufTy).Contents (Elt Ideal))
    (x4 : (⟨S256x384, .f32⟩ : BufTy).Contents (Elt Ideal)) (x5 : (⟨S256, .f32⟩ : BufTy).Contents (Elt Ideal))
    (b : Fin 65536) (j : Fin 256) :
    val_main_v5 (F := Ideal) x0 x2 x4 x5 (ix2 b j) = preAt x0 x2 x4 x5 b j := by
  have el : ∀ k : Fin 384, lidx_main_v2 (ix2 b j) k = ix2 b k := fun k => funext fun a => Fin.ext (by
    match a with
    | ⟨0, _⟩ => rfl
    | ⟨1, _⟩ => rfl)
  have er : ∀ k : Fin 384, idx_main_v1 (ridx_main_v2 (ix2 b j) k) = ix2 j k := fun k => funext fun a => Fin.ext (by
    match a with
    | ⟨0, _⟩ => rfl
    | ⟨1, _⟩ => rfl)
  have eb : idx_main_v3 (idx_main_v4 (ix2 b j)) = ix1 j := funext fun a => Fin.ext (by
    match a with
    | ⟨0, _⟩ => rfl)
  rw [val_main_v5_apply, val_main_v2_apply, val_main_v4_apply, val_main_v3_apply, eb]
  simp only [val_main_v1_apply, el, er]
  exact preOf_joined (fun k => x0 (ix2 b k)) (fun k => x2 (ix2 b k)) (fun k => x4 (ix2 j k)) (x5 (ix1 j))
    (fun k => val_main_v0 (F := Ideal) x0 x2 (ix2 b k)) (fun k => joined_apply x0 x2 b k)

/-- The shared gate: the spelt sigmoid of the pre-activation is its logistic function. -/
theorem gate_apply (x0 : (⟨S65536x128, .f32⟩ : BufTy).Contents (Elt Ideal)) (x2 : (⟨S65536x256, .f32⟩ : BufTy).Contents (Elt Ideal))
    (x4 : (⟨S256x384, .f32⟩ : BufTy).Contents (Elt Ideal)) (x5 : (⟨S256, .f32⟩ : BufTy).Contents (Elt Ideal)) (i : S65536x256.Idx) :
    val_main_v11 (F := Ideal) x0 x2 x4 x5 i = Ideal.logistic (val_main_v5 (F := Ideal) x0 x2 x4 x5 i) := by
  rw [val_main_v11_apply, val_main_v10_apply, val_main_cst_0_apply, val_main_v9_apply, val_main_v8_apply, val_main_cst_apply,
    val_main_v7_apply, val_main_v6_apply]
  exact Cert.LibLogistic.sigmoid_spelt _

/-- The new cell state is the gated cell's. -/
theorem cell_eq (x0 : (⟨S65536x128, .f32⟩ : BufTy).Contents (Elt Ideal)) (x2 x3 : (⟨S65536x256, .f32⟩ : BufTy).Contents (Elt Ideal))
    (x4 : (⟨S256x384, .f32⟩ : BufTy).Contents (Elt Ideal)) (x5 : (⟨S256, .f32⟩ : BufTy).Contents (Elt Ideal)) :
    val_main_v15 (F := Ideal) x0 x2 x3 x4 x5 = cellArr x0 x2 x3 x4 x5 := by
  funext i
  obtain ⟨b, j, rfl⟩ : ∃ (b : Fin 65536) (j : Fin 256), i = ix2 b j := ⟨i 0, i 1, eq_ix2 i⟩
  rw [val_main_v15_apply, val_main_v12_apply, val_main_v14_apply, val_main_v13_apply, gate_apply, pre_apply]
  rfl

/-- The side gate's pre-activation at (b, j). -/
theorem side_apply (x1 : (⟨S65536x32, .f32⟩ : BufTy).Contents (Elt Ideal)) (x6 : (⟨S256x32, .f32⟩ : BufTy).Contents (Elt Ideal))
    (x7 : (⟨S256, .f32⟩ : BufTy).Contents (Elt Ideal)) (b : Fin 65536) (j : Fin 256) :
    val_main_v21 (F := Ideal) x1 x6 x7 (ix2 b j) = sideAt x1 x6 x7 b j := by
  have el : ∀ k : Fin 32, lidx_main_v18 (ix2 b j) k = ix2 b k := fun k => funext fun a => Fin.ext (by
    match a with
    | ⟨0, _⟩ => rfl
    | ⟨1, _⟩ => rfl)
  have er : ∀ k : Fin 32, idx_main_v17 (ridx_main_v18 (ix2 b j) k) = ix2 j k := fun k => funext fun a => Fin.ext (by
    match a with
    | ⟨0, _⟩ => rfl
    | ⟨1, _⟩ => rfl)
  have eb : idx_main_v19 (idx_main_v20 (ix2 b j)) = ix1 j := funext fun a => Fin.ext (by
    match a with
    | ⟨0, _⟩ => rfl)
  rw [val_main_v21_apply, val_main_v18_apply, val_main_v20_apply, val_main_v19_apply, eb]
  simp only [val_main_v17_apply, el, er]
  rfl

/-- The side gate: the spelt sigmoid of its pre-activation is the logistic function. -/
theorem sideGate_apply (x1 : (⟨S65536x32, .f32⟩ : BufTy).Contents (Elt Ideal)) (x6 : (⟨S256x32, .f32⟩ : BufTy).Contents (Elt Ideal))
    (x7 : (⟨S256, .f32⟩ : BufTy).Contents (Elt Ideal)) (i : S65536x256.Idx) :
    val_main_v27 (F := Ideal) x1 x6 x7 i = Ideal.logistic (val_main_v21 (F := Ideal) x1 x6 x7 i) := by
  rw [val_main_v27_apply, val_main_v26_apply, val_main_cst_2_apply, val_main_v25_apply, val_main_v24_apply, val_main_cst_1_apply,
    val_main_v23_apply, val_main_v22_apply]
  exact Cert.LibLogistic.sigmoid_spelt _

/-- The new hidden state is the gated cell's. -/
theorem hidden_eq (x0 : (⟨S65536x128, .f32⟩ : BufTy).Contents (Elt Ideal)) (x1 : (⟨S65536x32, .f32⟩ : BufTy).Contents (Elt Ideal))
    (x2 x3 : (⟨S65536x256, .f32⟩ : BufTy).Contents (Elt Ideal)) (x4 : (⟨S256x384, .f32⟩ : BufTy).Contents (Elt Ideal))
    (x5 : (⟨S256, .f32⟩ : BufTy).Contents (Elt Ideal)) (x6 : (⟨S256x32, .f32⟩ : BufTy).Contents (Elt Ideal))
    (x7 : (⟨S256, .f32⟩ : BufTy).Contents (Elt Ideal)) :
    val_main_v32 (F := Ideal) x0 x1 x2 x3 x4 x5 x6 x7 = hiddenArr x0 x1 x2 x3 x4 x5 x6 x7 := by
  funext i
  obtain ⟨b, j, rfl⟩ : ∃ (b : Fin 65536) (j : Fin 256), i = ix2 b j := ⟨i 0, i 1, eq_ix2 i⟩
  rw [val_main_v32_apply, val_main_v31_apply, val_main_v30_apply, val_main_v28_apply, val_main_v29_apply, val_main_v16_apply,
    sideGate_apply, side_apply, gate_apply, pre_apply, congrFun (cell_eq x0 x2 x3 x4 x5) (ix2 b j)]
  rfl

end Cert.ReferenceIdeal.RefCell

end
-- ==== Proof.lean ====
/-
  A gated recurrent cell with one shared gate and a side ("media") gate: the tiled kernel against the plain reference,
  on the extended reals.

  For batch row b and unit j, with x the input row (128 entries), h the previous hidden row (256), ct the previous cell
  entry, md the media row (32), Wi the shared weight matrix [256, 384] with bias bi, Wm [256, 32] with bias bm, and σ the
  logistic function:
      p = Σ_{k<128} x(b,k)·Wi(j,k) + Σ_{k<256} h(b,k)·Wi(j,128+k) + bi(j)
      c = ct(b,j)·σ(p) + tanh p·σ(p)                                   the new cell state
      q = Σ_{k<32} md(b,k)·Wm(j,k) + bm(j)
      hidden = tanh(c − tanh c + tanh c·σ(q))·σ(p)                     the new hidden state
  and the results are (hidden, hidden, c).

  The kernel cuts the weight matrix into its first 128 and last 256 columns, walks the batch in 64 blocks of 1024 rows,
  and at each block forms the two products row-against-weight-row and adds them; the reference joins x and h into rows
  of 384 entries and multiplies once by the transposed matrix. The two agree because a sum over 384 columns is the sum
  over the first 128 plus the sum over the last 256 — associativity of addition only, so no finiteness of the inputs
  is used. The kernel's logistic operation and the reference's spelt 1/(1 + e^(−p)) are one function by definition;
  tanh is one function on both sides; a change of float format is the identity.

  Modules: Cell (the entry-wise cell and the split of the sum), Arrays (the two result arrays as functions of the
  arguments), Block (one block of the kernel, entry by entry), Blocks (the kernel's blocks assembled into the arrays),
  RefCell (the reference's operations read entry by entry).
-/
import proofs.«107112_j21595095564497_1_alg».proof.Defs
import proofs.«107112_j21595095564497_1_alg».proof.Proof.Gen.Kernel
import proofs.«107112_j21595095564497_1_alg».proof.Proof.Gen.Kernel.Frame
import proofs.«107112_j21595095564497_1_alg».proof.Proof.Gen.KernelIdeal
import proofs.«107112_j21595095564497_1_alg».proof.Proof.Gen.KernelIdeal.Frame
import proofs.«107112_j21595095564497_1_alg».proof.Proof.Gen.KernelIdeal.Value
import proofs.«107112_j21595095564497_1_alg».proof.Proof.Gen.ReferenceIdeal
import proofs.«107112_j21595095564497_1_alg».proof.Proof.Gen.ReferenceIdeal.Run
import proofs.«107112_j21595095564497_1_alg».proof.Proof.Gen.ReferenceIdeal.Read
import proofs.«107112_j21595095564497_1_alg».proof.Proof.Gen.Pre_finite_inputs
import proofs.«107112_j21595095564497_1_alg».proof.Proof.Blocks
import proofs.«107112_j21595095564497_1_alg».proof.Proof.RefCell
import Idealize.ShloMosaic.Adequacy
import Idealize.ShloMosaic.Init

noncomputable section

namespace Cert.Proof

open Idealize.ShloMosaic Idealize.SL.Sem Cert.GatedCell

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the eight arguments both programs end with the new hidden array twice and the new
    cell array: the kernel's blocks assembled (`Blocks.run`), the reference's operations read entry by entry
    (`RefCell.hidden_eq`, `RefCell.cell_eq`). -/
theorem algebraic : Cert.algebraic_KernelIdeal_ReferenceIdeal := by
  intro m ρ m' ρ' _ hagree
  refine ⟨_, _, _, Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  have eh := (Cert.ReferenceIdeal.Read.val_main_v32_eq (F := Ideal) m' c).trans (Cert.ReferenceIdeal.RefCell.hidden_eq _ _ _ _ _ _ _ _)
  have ec := (Cert.ReferenceIdeal.Read.val_main_v15_eq (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))).trans
    (Cert.ReferenceIdeal.RefCell.cell_eq _ _ _ _ _)
  refine ⟨(h c).1.trans (eh.trans ?_), (h c).2.1.trans (eh.trans ?_), (h c).2.2.1.trans (ec.trans ?_), (h c).2.2.2⟩
  · rw [a0, a1, a2, a3, a4, a5, a6, a7]
  · rw [a0, a1, a2, a3, a4, a5, a6, a7]
  · rw [a0, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
